-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 79
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x64, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x64, .f32⟩
  | .hbm, ⟨52, _⟩ => ⟨S1700000x1, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x40, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x40, .f32⟩
  | .hbm, ⟨70, _⟩ => ⟨S1700000x1, .f32⟩
  | .hbm, ⟨71, _⟩ => ⟨S1700000x40, .f32⟩
  | .hbm, ⟨72, _⟩ => ⟨S1700000x40, .f32⟩
  | .hbm, ⟨73, _⟩ => ⟨S_, .f32⟩
  | .hbm, ⟨74, _⟩ => ⟨S100000x40, .f32⟩
  | .hbm, ⟨75, _⟩ => ⟨S1700000x1, .i32⟩
  | .hbm, ⟨76, _⟩ => ⟨S100000x40, .f32⟩
  | .hbm, ⟨77, _⟩ => ⟨S1x40, .f32⟩
  | .hbm, ⟨78, _⟩ => ⟨S100000x40, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x40, .f32⟩
  | .local _ .vmem, ⟨9, _⟩ => ⟨S10000x40, .f32⟩
  | .local _ .vmem, ⟨10, _⟩ => ⟨S10000x40, .f32⟩
  | .local _ .vmem, ⟨11, _⟩ => ⟨S10000x40, .f32⟩
  | .local _ .vmem, ⟨12, _⟩ => ⟨S10000x40, .f32⟩
  | .local _ .vmem, ⟨13, _⟩ => ⟨S1x40, .f32⟩
  | .local _ .vmem, ⟨14, _⟩ => ⟨S10000x40, .f32⟩
  | .local _ .vmem, ⟨15, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x40.size a ≤ S100000x40.size a
  hwx1_3 : ∀ i : grid1.Coords, EltTy.bits .f32 = 32 ∨ (Rect.block (s := S100000x40) S10000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S10000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x64, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x64, .f32⟩
  | .hbm, ⟨52, _⟩ => ⟨S1700000x1, .f32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S1x64, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S100000x64, .f32⟩
  | .hbm, ⟨64, _⟩ => ⟨S100000x64, .f32⟩
  | .hbm, ⟨65, _⟩ => ⟨S100000x40, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x40, .f32⟩
  | .hbm, ⟨75, _⟩ => ⟨S1700000x1, .f32⟩
  | .hbm, ⟨76, _⟩ => ⟨S1700000x40, .f32⟩
  | .hbm, ⟨77, _⟩ => ⟨S1700000x40, .f32⟩
  | .hbm, ⟨78, _⟩ => ⟨S_, .f32⟩
  | .hbm, ⟨79, _⟩ => ⟨S100000x40, .f32⟩
  | .hbm, ⟨80, _⟩ => ⟨S1700000x1, .i32⟩
  | .hbm, ⟨81, _⟩ => ⟨S100000x40, .f32⟩
  | .hbm, ⟨82, _⟩ => ⟨S1x40, .f32⟩
  | .hbm, ⟨83, _⟩ => ⟨S100000x40, .f32⟩
  | .hbm, ⟨84, _⟩ => ⟨S100000x40, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S100000x1, .f32⟩
  | .hbm, ⟨91, _⟩ => ⟨S100000x40, .f32⟩
  | .hbm, ⟨92, _⟩ => ⟨S100000x40, .f32⟩
  | .hbm, ⟨93, _⟩ => ⟨S100000x40, .f32⟩
  | .hbm, ⟨94, _⟩ => ⟨S_, .f32⟩
  | .hbm, ⟨95, _⟩ => ⟨S100000, .f32⟩
  | .hbm, ⟨96, _⟩ => ⟨S100000x1, .f32⟩
  | .hbm, ⟨97, _⟩ => ⟨S100000x1, .f32⟩
  | .hbm, ⟨98, _⟩ => ⟨S100000x40, .f32⟩
  | .hbm, ⟨99, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_call1_cst_0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_cst_1 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_v64 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Spec.lean ====
/-
  The mathematics of the three kernels, stated once over the extended reals.

  A matrix is a function of a two-coordinate index. Three row-wise functions of matrices:
    * `mm X W`        — the product: entry (n, q) is the sum over k of X(n, k) · W(k, q);
    * `mmRelu A b W`  — the product of the rectified, biased rows: entry (n, q) is the sum over k of
                        max (A(n, k) + b(0, k)) 0 · W(k, q);
    * `lsm A b`       — the row-wise log-softmax of the biased rows: with r(k) = A(n, k) + b(0, k) and M the
                        maximum of r over k (taken from −∞), entry (n, q) is (r(q) − M) − log (Σₖ exp (r(k) − M)).
  Each entry depends on ONE row of the first operand (and on all of the others), whatever the number of rows: this is
  why a block of rows of the result is the same function of the block of rows of the operand (`*_rows`).
-/
import Idealize.ShloMosaic.PureOps.Ideal
import Idealize.ShloMosaic.Lib.ValueIdx

noncomputable section

namespace Cert.Spec

open Idealize.ShloMosaic Idealize.ShloMosaic.ValueIdx

/-- An r × c matrix of extended reals (the ideal reading of an f32 array). -/
abbrev Mat (r c : Nat) := FVec Ideal (⟨2, ![r, c]⟩ : Shape) .f32

/-- The row coordinate and the column coordinate of an index. -/
abbrev rowOf {r c : Nat} (i : (⟨2, ![r, c]⟩ : Shape).Idx) : Fin r := ⟨(i 0).val, (i 0).isLt⟩
abbrev colOf {r c : Nat} (i : (⟨2, ![r, c]⟩ : Shape).Idx) : Fin c := ⟨(i 1).val, (i 1).isLt⟩

/-- The word of f32 zero and of f32 −∞, read as extended reals (never evaluated: both sides carry the same word). -/
abbrev zeroF : EReal := Ideal.ofBits .f32 0x00000000#32
abbrev negInfF : EReal := Ideal.ofBits .f32 0xFF800000#32

/-- A row times a matrix, at one column. -/
def rowDot {K N : Nat} (a : Fin K → EReal) (W : Mat K N) (q : Fin N) : EReal := ∑ k : Fin K, a k * W (ix2 k q)

/-- A row plus a bias row, rectified. -/
def reluBias {K : Nat} (a b : Fin K → EReal) : Fin K → EReal := fun k => max (a k + b k) zeroF

/-- The maximum of a row, folded from −∞. -/
def rowMax {N : Nat} (r : Fin N → EReal) : EReal := (Finset.univ : Finset (Fin N)).fold max negInfF r

/-- The log-softmax of a row, at one column: the shifted entry minus the logarithm of the sum of the shifted exponentials. -/
def logSoftmaxRow {N : Nat} (r : Fin N → EReal) (q : Fin N) : EReal :=
  (r q - rowMax r) - Ideal.log (∑ k : Fin N, Ideal.exp (r k - rowMax r))

/-- The matrix product. -/
def mm {M K N : Nat} (X : Mat M K) (W : Mat K N) : Mat M N :=
  fun i => rowDot (fun k => X (ix2 (rowOf i) k)) W (colOf i)

/-- The product of the rectified biased rows with a matrix. -/
def mmRelu {M K N : Nat} (A : Mat M K) (b : Mat 1 K) (W : Mat K N) : Mat M N :=
  fun i => rowDot (reluBias (fun k => A (ix2 (rowOf i) k)) (fun k => b (ix2 0 k))) W (colOf i)

/-- The row-wise log-softmax of the biased rows. -/
def lsm {M N : Nat} (A : Mat M N) (b : Mat 1 N) : Mat M N :=
  fun i => logSoftmaxRow (fun k => A (ix2 (rowOf i) k) + b (ix2 0 k)) (colOf i)

theorem mm_apply {M K N : Nat} (X : Mat M K) (W : Mat K N) (n : Fin M) (q : Fin N) :
    mm X W (ix2 n q) = ∑ k : Fin K, X (ix2 n k) * W (ix2 k q) := rfl

theorem mmRelu_apply {M K N : Nat} (A : Mat M K) (b : Mat 1 K) (W : Mat K N) (n : Fin M) (q : Fin N) :
    mmRelu A b W (ix2 n q) = ∑ k : Fin K, max (A (ix2 n k) + b (ix2 0 k)) zeroF * W (ix2 k q) := rfl

theorem lsm_apply {M N : Nat} (A : Mat M N) (b : Mat 1 N) (n : Fin M) (q : Fin N) :
    lsm A b (ix2 n q) = logSoftmaxRow (fun k => A (ix2 n k) + b (ix2 0 k)) q := rfl

/-- A block of rows of the product is the product of the block of rows: if the rows of `Xb` are rows `f p` of `X`,
    entry (p, q) of `mm Xb W` is entry (f p, q) of `mm X W`. -/
theorem mm_rows {Mb M K N : Nat} (Xb : Mat Mb K) (X : Mat M K) (W : Mat K N) (p : Fin Mb) (n : Fin M) (q : Fin N)
    (h : ∀ k, Xb (ix2 p k) = X (ix2 n k)) : mm Xb W (ix2 p q) = mm X W (ix2 n q) := by
  rw [mm_apply, mm_apply]
  exact Finset.sum_congr rfl fun k _ => by rw [h k]

theorem mmRelu_rows {Mb M K N : Nat} (Ab : Mat Mb K) (A : Mat M K) (b : Mat 1 K) (W : Mat K N) (p : Fin Mb) (n : Fin M)
    (q : Fin N) (h : ∀ k, Ab (ix2 p k) = A (ix2 n k)) : mmRelu Ab b W (ix2 p q) = mmRelu A b W (ix2 n q) := by
  rw [mmRelu_apply, mmRelu_apply]
  exact Finset.sum_congr rfl fun k _ => by rw [h k]

theorem lsm_rows {Mb M N : Nat} (Ab : Mat Mb N) (A : Mat M N) (b : Mat 1 N) (p : Fin Mb) (n : Fin M) (q : Fin N)
    (h : ∀ k, Ab (ix2 p k) = A (ix2 n k)) : lsm Ab b (ix2 p q) = lsm A b (ix2 n q) := by
  rw [lsm_apply, lsm_apply]
  exact congrArg (fun r => logSoftmaxRow r q) (funext fun k => by rw [h k])

end Cert.Spec

end
-- ==== Proof.Payload.lean ====
/-
  What each kernel body stores, as a function of the blocks it loads, at the ideal values.

  The first body stores the product of its row block with the whole weight matrix (the two roundings to bf16 on the way into
  the product are the identity on extended reals, and the product accumulates into zero); the second the product of the
  rectified biased row block with its weight matrix; the third the row-wise log-softmax of its biased row block: the
  row maximum is the lane reduction by max from −∞, the normaliser the lane sum of the shifted exponentials, and both are
  broadcast back along the row through a unit column.
-/
import proofs.«179233_j12232066859616_1_alg».proof.Proof.Gen.KernelIdeal.Skeleton
import proofs.«179233_j12232066859616_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Payload

open Cert.KernelIdeal Cert.KernelIdeal.Gen Cert.Spec
open Idealize.ShloMosaic Idealize.ShloMosaic.ValueIdx

/-! ### The contraction indices of the 10000×128 by 128×64 product -/

theorem d0_lhs0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem d0_lhs1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem d0_rhs0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem d0_rhs1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The product into a zero accumulator, read at (p, q): the sum over k of the left operand at (p, k) times the right at (k, q). -/
theorem d0_matmul_apply (l : FVec Ideal S10000x128 .bf16) (r : FVec Ideal S128x64 .bf16) (p : Fin 10000) (q : Fin 64) :
    FloatOps.matmul dot_S10000x128_S128x64_S10000x64_1_0_0_1_n_n none l r (constant S10000x64 .f32 0x00000000#32) (ix2 p q)
      = ∑ k : Fin 128, l (ix2 p k) * r (ix2 k q) := by
  rw [Ideal.matmul_constant_zero_apply, ← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact d0_lhs0 _ _
    | ⟨1, _⟩ => exact (d0_lhs1 _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (d0_rhs0 _ _).trans hk
    | ⟨1, _⟩ => exact d0_rhs1 _ _)
  rw [el, er]

/-! ### The contraction indices of the 10000×64 by 64×40 product -/

theorem d1_lhs0 (i : S10000x40.Idx) (q : dot_S10000x64_S64x40_S10000x40_1_0_0_1_n_n.contr.Idx) : (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
theorem d1_lhs1 (i : S10000x40.Idx) (q : dot_S10000x64_S64x40_S10000x40_1_0_0_1_n_n.contr.Idx) : (dot_S10000x64_S64x40_S10000x40_1_0_0_1_n_n.lhsIdx i q 1).val = (q ⟨0, by decide⟩).val :=
  dot_S10000x64_S64x40_S10000x40_1_0_0_1_n_n.lhsIdx_val_of_single rfl i q
theorem d1_rhs0 (i : S10000x40.Idx) (q : dot_S10000x64_S64x40_S10000x40_1_0_0_1_n_n.contr.Idx) : (dot_S10000x64_S64x40_S10000x40_1_0_0_1_n_n.rhsIdx i q 0).val = (q ⟨0, by decide⟩).val :=
  dot_S10000x64_S64x40_S10000x40_1_0_0_1_n_n.rhsIdx_val_of_single rfl i q
theorem d1_rhs1 (i : S10000x40.Idx) (q : dot_S10000x64_S64x40_S10000x40_1_0_0_1_n_n.contr.Idx) : (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- The product into a zero accumulator, read at (p, q): the sum over k of the left operand at (p, k) times the right at (k, q). -/
theorem d1_matmul_apply (l : FVec Ideal S10000x64 .bf16) (r : FVec Ideal S64x40 .bf16) (p : Fin 10000) (q : Fin 40) :
    FloatOps.matmul dot_S10000x64_S64x40_S10000x40_1_0_0_1_n_n none l r (constant S10000x40 .f32 0x00000000#32) (ix2 p q)
      = ∑ k : Fin 64, l (ix2 p k) * r (ix2 k q) := by
  rw [Ideal.matmul_constant_zero_apply, ← Equiv.sum_comp (contrEquiv1 dot_S10000x64_S64x40_S10000x40_1_0_0_1_n_n 64 rfl rfl).symm]
  refine Finset.sum_congr rfl fun k _ => ?_
  have hk := contrEquiv1_symm_val dot_S10000x64_S64x40_S10000x40_1_0_0_1_n_n 64 rfl rfl k
  have el : dot_S10000x64_S64x40_S10000x40_1_0_0_1_n_n.lhsIdx (ix2 p q) ((contrEquiv1 dot_S10000x64_S64x40_S10000x40_1_0_0_1_n_n 64 rfl rfl).symm k) = ix2 p k := funext fun a => Fin.ext (by
    match a with
    | ⟨0, _⟩ => exact d1_lhs0 _ _
    | ⟨1, _⟩ => exact (d1_lhs1 _ _).trans hk)
  have er : dot_S10000x64_S64x40_S10000x40_1_0_0_1_n_n.rhsIdx (ix2 p q) ((contrEquiv1 dot_S10000x64_S64x40_S10000x40_1_0_0_1_n_n 64 rfl rfl).symm k) = ix2 k q := funext fun a => Fin.ext (by
    match a with
    | ⟨0, _⟩ => exact (d1_rhs0 _ _).trans hk
    | ⟨1, _⟩ => exact d1_rhs1 _ _)
  rw [el, er]

/-! ### The keepdims column: a vector as a one-column matrix, and a one-column matrix broadcast along its rows -/

/-- An `[a]` vector cast to `[a, 1]` reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### The three payloads -/

/-- The first body's store is the product of its two loaded blocks. -/
theorem pay0_eq (xb : Vec Ideal S10000x128 .f32) (wb : Vec Ideal S128x64 .f32) : k0_pay1 xb wb = mm xb wb := by
  funext j
  obtain ⟨p, q, rfl⟩ : ∃ (p : Fin 10000) (q : Fin 64), j = ix2 p q := ⟨j 0, j 1, eq_ix2 j⟩
  unfold k0_pay1
  exact (d0_matmul_apply _ _ p q).trans (mm_apply xb wb p q).symm

/-- The second body's store is the product of the rectified biased block with the weight block. -/
theorem pay1_eq (ab : Vec Ideal S10000x64 .f32) (bb : Vec Ideal S1x64 .f32) (wb : Vec Ideal S64x40 .f32) :
    k1_pay1 ab bb wb = mmRelu ab bb wb := by
  funext j
  obtain ⟨p, q, rfl⟩ : ∃ (p : Fin 10000) (q : Fin 40), j = ix2 p q := ⟨j 0, j 1, eq_ix2 j⟩
  unfold k1_pay1
  refine (d1_matmul_apply _ _ p q).trans ?_
  rw [mmRelu_apply]
  refine Finset.sum_congr rfl fun k _ => ?_
  show max ((shapeCast S10000x64 ab shapeCasts_S10000x64_S10000x64) (ix2 p k)
      + (broadcastTo S10000x64 (shapeCast S1x64 bb shapeCasts_S1x64_S1x64) broadcasts_S1x64_S10000x64) (ix2 p k)) zeroF * wb (ix2 k q) = _
  rw [shapeCast_self, shapeCast_self, broadcastTo_1b_ab_apply]

/-! ### The log-softmax body -/

/-- The reduced index of row p with lane k put back is the index (p, k). -/
theorem lift_eq (p : Fin 10000) (k : Fin 40) : reduces_S10000x40_S10000.lift (ix1 p) k = ix2 p k :=
  funext fun a => Fin.ext (by
    match a with
    | ⟨0, _⟩ => rfl
    | ⟨1, _⟩ => rfl)

/-- The row maxima (the lane reduction by max from −∞), as a unit column broadcast back along the rows. -/
def rowMaxB (x : FVec Ideal S10000x40 .f32) : FVec Ideal S10000x40 .f32 :=
  broadcastTo S10000x40 (shapeCast S10000x1 (multiReduction .maximumf [1] S10000 x 0xFF800000#32 reduces_S10000x40_S10000 (.inl rfl) rfl)
    shapeCasts_S10000_S10000x1) broadcasts_S10000x1_S10000x40

theorem rowMaxB_apply (x : FVec Ideal S10000x40 .f32) (p : Fin 10000) (c : Fin 40) :
    rowMaxB x (ix2 p c) = rowMax (fun k => x (ix2 p k)) := by
  unfold rowMaxB
  rw [broadcastTo_a1_ab_apply, shapeCast_a_a1_apply]
  refine (Ideal.multiReduction_maximumf_single x 0xFF800000#32 reduces_S10000x40_S10000 (.inl rfl) rfl (ix1 p)).trans ?_
  exact congrArg (fun f : Fin 40 → EReal => (Finset.univ : Finset (Fin 40)).fold max negInfF f) (funext fun k => congrArg x (lift_eq p k))

/-- Shift by the row maximum, exponentiate, sum along the row, take the logarithm, subtract: entry (p, q) is the log-softmax of
    row p at q. -/
theorem softmax_chain (x : FVec Ideal S10000x40 .f32) (p : Fin 10000) (q : Fin 40) :
    subf (subf x (rowMaxB x))
      (broadcastTo S10000x40 (log (shapeCast S10000x1 (multiReduction .add [1] S10000 (exp (subf x (rowMaxB x))) 0x00000000#32
        reduces_S10000x40_S10000 (.inl rfl) rfl) shapeCasts_S10000_S10000x1)) broadcasts_S10000x1_S10000x40) (ix2 p q)
      = logSoftmaxRow (fun k => x (ix2 p k)) q := by
  rw [subf_apply, subf_apply, rowMaxB_apply, broadcastTo_a1_ab_apply]
  show _ - Ideal.log ((shapeCast S10000x1 (multiReduction .add [1] S10000 (exp (subf x (rowMaxB x))) 0x00000000#32
        reduces_S10000x40_S10000 (.inl rfl) rfl) shapeCasts_S10000_S10000x1) (ix2 p (0 : Fin 1))) = _
  rw [shapeCast_a_a1_apply]
  unfold logSoftmaxRow
  refine congrArg (fun s => (x (ix2 p q) - rowMax (fun k => x (ix2 p k))) - Ideal.log s)
    ((Ideal.multiReduction_add_single (exp (subf x (rowMaxB x))) 0x00000000#32 reduces_S10000x40_S10000 (.inl rfl) rfl (ix1 p)).trans ?_)
  refine Finset.sum_congr rfl fun k _ => ?_
  show Ideal.exp (x (reduces_S10000x40_S10000.lift (ix1 p) k) - rowMaxB x (reduces_S10000x40_S10000.lift (ix1 p) k)) = _
  rw [lift_eq p k]
  exact congrArg (fun y => Ideal.exp (x (ix2 p k) - y)) (rowMaxB_apply x p k)

/-- The third body's store is the row-wise log-softmax of the biased block. -/
theorem pay2_eq (ab : Vec Ideal S10000x40 .f32) (bb : Vec Ideal S1x40 .f32) : k2_pay1 ab bb = lsm ab bb := by
  funext j
  obtain ⟨p, q, rfl⟩ : ∃ (p : Fin 10000) (q : Fin 40), j = ix2 p q := ⟨j 0, j 1, eq_ix2 j⟩
  unfold k2_pay1
  refine (softmax_chain _ p q).trans ?_
  rw [lsm_apply]
  refine congrArg (fun r => logSoftmaxRow r q) (funext fun k => ?_)
  show (shapeCast S10000x40 ab shapeCasts_S10000x40_S10000x40) (ix2 p k)
    + (broadcastTo S10000x40 (shapeCast S1x40 bb shapeCasts_S1x40_S1x40) broadcasts_S1x40_S10000x40) (ix2 p k) = _
  rw [shapeCast_self, shapeCast_self, broadcastTo_1b_ab_apply]

end Cert.KernelIdeal.Payload

end
-- ==== Proof.Blocks.lean ====
/-
  From blocks to arrays, for the three regions.

  Each region walks ten grid points; at point t its row window holds rows 10000·t … 10000·t + 9999 of its array, its other
  windows their whole (small) arrays, and its output block is written back to the same rows of the result array. The
  body's store is a row-wise function of the row block (Payload), so what point t writes back is block t of that same
  function of the whole arrays; the ten blocks tile the 100000 rows, so the result array ends holding the function.
  All of it is stated at ANY contents `V` of the core's buffers at the region's entry.
-/
import proofs.«179233_j12232066859616_1_alg».proof.Proof.Gen.KernelIdeal.Frame
import proofs.«179233_j12232066859616_1_alg».proof.Proof.Payload
import Idealize.ShloMosaic.Lib.Pipeline.Value

set_option maxRecDepth 16384

noncomputable section

namespace Cert.KernelIdeal.Blocks

open Cert.KernelIdeal Cert.KernelIdeal.Gen Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 0 -/

/-- The printed index maps of region 0, decided over its ten grid points: the row windows sit at block t, the others at block 0. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Row p of the row window's block at point t is row 10000·t + p of its array. -/
theorem rows0 (c : Dev nD) (t : Fin cfg0.N) (p : Fin 10000) (k : Fin 128) (n : Fin 100000) (hn : n.val = t.val * 10000 + p.val) :
    (iblk0 V c 0 t : Vec Ideal S10000x128 .f32) (ix2 p k) = (V c main_arg0 : S100000x128.Idx → Ideal .f32) (ix2 n k) := by
  obtain ⟨e0, e1, e2, e3, e4, e5⟩ := idx0 t
  unfold iblk0
  rw [View.read_apply]
  show V c main_arg0 _ = V c main_arg0 _
  refine congrArg _ (funext fun a => Fin.ext ?_)
  match a with
  | ⟨0, _⟩ => show win0_0.index t (0 : Fin 2) * 10000 + 1 * p.val = n.val; rw [e0, hn]; omega
  | ⟨1, _⟩ => show win0_0.index t (1 : Fin 2) * 128 + 1 * k.val = k.val; rw [e1]; omega

/-- Window 1 of region 0 is its whole array at every point. -/
theorem whole0_1 (c : Dev nD) (t : Fin cfg0.N) : (iblk0 V c 1 t : Vec Ideal S128x64 .f32) = V c main_arg2 := by
  obtain ⟨e0, e1, e2, e3, e4, e5⟩ := idx0 t
  funext j
  unfold iblk0
  rw [View.read_apply]
  show V c main_arg2 _ = V c main_arg2 j
  refine congrArg _ (funext fun a => Fin.ext ?_)
  match a with
  | ⟨0, _⟩ => show win0_1.index t (0 : Fin 2) * 128 + 1 * (j 0).val = (j 0).val; rw [e2]; omega
  | ⟨1, _⟩ => show win0_1.index t (1 : Fin 2) * 64 + 1 * (j 1).val = (j 1).val; rw [e3]; omega

/-- Where point t's output block sits in the result array: entry (p, q) of the block is entry (10000·t + p, q). -/
theorem emb0 (t : Fin cfg0.N) (p : Fin 10000) (q : Fin 64) (n : Fin 100000) (hn : n.val = t.val * 10000 + p.val) :
    ((cfg0.win 2).blk t).view.emb (ix2 p q : S10000x64.Idx) = (ix2 n q : S100000x64.Idx) := by
  obtain ⟨e0, e1, e2, e3, e4, e5⟩ := idx0 t
  refine funext fun a => Fin.ext ?_
  match a with
  | ⟨0, _⟩ => show win0_2.index t (0 : Fin 2) * 10000 + 1 * p.val = n.val; rw [e4, hn]; omega
  | ⟨1, _⟩ => show win0_2.index t (1 : Fin 2) * 64 + 1 * q.val = q.val; rw [e5]; omega

/-- What point t writes back is block t of the whole-array function of the region's input arrays. -/
theorem flushed0 (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  funext j
  obtain ⟨p, q, rfl⟩ : ∃ (p : Fin 10000) (q : Fin 64), j = ix2 p q := ⟨j 0, j 1, eq_ix2 j⟩
  have ht : t.val < 10 := Nat.lt_of_lt_of_eq t.isLt N_0
  have hn : (⟨t.val * 10000 + p.val, by have := p.isLt; omega⟩ : Fin 100000).val = t.val * 10000 + p.val := rfl
  show k0_pay1 (iblk0 V c 0 t) (iblk0 V c 1 t) (ix2 p q) = mm (V c main_arg0) (V c main_arg2) (((cfg0.win 2).blk t).view.emb (ix2 p q))
  rw [emb0 t p q _ hn, Payload.pay0_eq, whole0_1 V c t]
  exact mm_rows _ _ _ p _ q (fun k => rows0 V c t p k _ hn)

/-- An index of the result array is in point t's block iff each coordinate is in the block's range. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Every row of the result array is in the block of the point its row number divided by 10000 names. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 10000, by rw [show cfg0.N = 10 from N_0]; omega⟩
  obtain ⟨e0, e1, e2, e3, e4, e5⟩ := idx0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e4]; show (i 0).val / 10000 * 10000 ≤ (i 0).val ∧ (i 0).val < (i 0).val / 10000 * 10000 + 10000; omega
  | ⟨1, _⟩ => show win0_2.index t (1 : Fin 2) * 64 ≤ (i 1).val ∧ (i 1).val < win0_2.index t (1 : Fin 2) * 64 + 64; rw [e5]; omega

/-- The result array of region 0 after its ten points: the whole-array function of the arrays the region entered with. -/
theorem arr0 (c : Dev nD) : (dat0 V c).arrAt 2 cfg0.N = mm (V c main_arg0) (V c main_arg2) :=
  (dat0 V c).arrAt_eq_of_cover 2 _ (fun t _ => flushed0 V c t) cover0

/-! ## Region 1 -/

/-- The printed index maps of region 1, decided over its ten grid points: the row windows sit at block t, the others at block 0. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Row p of the row window's block at point t is row 10000·t + p of its array. -/
theorem rows1 (c : Dev nD) (t : Fin cfg1.N) (p : Fin 10000) (k : Fin 64) (n : Fin 100000) (hn : n.val = t.val * 10000 + p.val) :
    (iblk1 V c 0 t : Vec Ideal S10000x64 .f32) (ix2 p k) = (V c main_v42 : S100000x64.Idx → Ideal .f32) (ix2 n k) := by
  obtain ⟨e0, e1, e2, e3, e4, e5, e6, e7⟩ := idx1 t
  unfold iblk1
  rw [View.read_apply]
  show V c main_v42 _ = V c main_v42 _
  refine congrArg _ (funext fun a => Fin.ext ?_)
  match a with
  | ⟨0, _⟩ => show win1_0.index t (0 : Fin 2) * 10000 + 1 * p.val = n.val; rw [e0, hn]; omega
  | ⟨1, _⟩ => show win1_0.index t (1 : Fin 2) * 64 + 1 * k.val = k.val; rw [e1]; omega

/-- Window 1 of region 1 is its whole array at every point. -/
theorem whole1_1 (c : Dev nD) (t : Fin cfg1.N) : (iblk1 V c 1 t : Vec Ideal S1x64 .f32) = V c main_v43 := by
  obtain ⟨e0, e1, e2, e3, e4, e5, e6, e7⟩ := idx1 t
  funext j
  unfold iblk1
  rw [View.read_apply]
  show V c main_v43 _ = V c main_v43 j
  refine congrArg _ (funext fun a => Fin.ext ?_)
  match a with
  | ⟨0, _⟩ => show win1_1.index t (0 : Fin 2) * 1 + 1 * (j 0).val = (j 0).val; rw [e2]; omega
  | ⟨1, _⟩ => show win1_1.index t (1 : Fin 2) * 64 + 1 * (j 1).val = (j 1).val; rw [e3]; omega

/-- Window 2 of region 1 is its whole array at every point. -/
theorem whole1_2 (c : Dev nD) (t : Fin cfg1.N) : (iblk1 V c 2 t : Vec Ideal S64x40 .f32) = V c main_arg4 := by
  obtain ⟨e0, e1, e2, e3, e4, e5, e6, e7⟩ := idx1 t
  funext j
  unfold iblk1
  rw [View.read_apply]
  show V c main_arg4 _ = V c main_arg4 j
  refine congrArg _ (funext fun a => Fin.ext ?_)
  match a with
  | ⟨0, _⟩ => show win1_2.index t (0 : Fin 2) * 64 + 1 * (j 0).val = (j 0).val; rw [e4]; omega
  | ⟨1, _⟩ => show win1_2.index t (1 : Fin 2) * 40 + 1 * (j 1).val = (j 1).val; rw [e5]; omega

/-- Where point t's output block sits in the result array: entry (p, q) of the block is entry (10000·t + p, q). -/
theorem emb1 (t : Fin cfg1.N) (p : Fin 10000) (q : Fin 40) (n : Fin 100000) (hn : n.val = t.val * 10000 + p.val) :
    ((cfg1.win 3).blk t).view.emb (ix2 p q : S10000x40.Idx) = (ix2 n q : S100000x40.Idx) := by
  obtain ⟨e0, e1, e2, e3, e4, e5, e6, e7⟩ := idx1 t
  refine funext fun a => Fin.ext ?_
  match a with
  | ⟨0, _⟩ => show win1_3.index t (0 : Fin 2) * 10000 + 1 * p.val = n.val; rw [e6, hn]; omega
  | ⟨1, _⟩ => show win1_3.index t (1 : Fin 2) * 40 + 1 * q.val = q.val; rw [e7]; omega

/-- What point t writes back is block t of the whole-array function of the region's input arrays. -/
theorem flushed1 (c : Dev nD) (t : Fin cfg1.N) :
    (dat1 V c).flushed 3 t = ((cfg1.win 3).blk t).view.read (Elt Ideal) (mmRelu (V c main_v42) (V c main_v43) (V c main_arg4)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x40) hz]
  funext j
  obtain ⟨p, q, rfl⟩ : ∃ (p : Fin 10000) (q : Fin 40), j = ix2 p q := ⟨j 0, j 1, eq_ix2 j⟩
  have ht : t.val < 10 := Nat.lt_of_lt_of_eq t.isLt N_1
  have hn : (⟨t.val * 10000 + p.val, by have := p.isLt; omega⟩ : Fin 100000).val = t.val * 10000 + p.val := rfl
  show k1_pay1 (iblk1 V c 0 t) (iblk1 V c 1 t) (iblk1 V c 2 t) (ix2 p q) = mmRelu (V c main_v42) (V c main_v43) (V c main_arg4) (((cfg1.win 3).blk t).view.emb (ix2 p q))
  rw [emb1 t p q _ hn, Payload.pay1_eq, whole1_1 V c t, whole1_2 V c t]
  exact mmRelu_rows _ _ _ _ p _ q (fun k => rows1 V c t p k _ hn)

/-- An index of the result array is in point t's block iff each coordinate is in the block's range. -/
theorem mem_blk1 (t : Fin cfg1.N) (i : S100000x40.Idx) :
    i ∈ ((cfg1.win 3).blk t).view.set ↔ ∀ a : Fin 2, win1_3.index t a * S10000x40.size a ≤ (i a).val ∧ (i a).val < win1_3.index t a * S10000x40.size a + S10000x40.size a := by
  show i ∈ ((View.whole main_v44).slice (win1_3.rect t)).set ↔ _
  rw [View.set_slice_whole, Rect.mem_set_unit]
  exact Iff.rfl

/-- Every row of the result array is in the block of the point its row number divided by 10000 names. -/
theorem cover1 (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  let t : Fin cfg1.N := ⟨(i 0).val / 10000, by rw [show cfg1.N = 10 from N_1]; omega⟩
  obtain ⟨e0, e1, e2, e3, e4, e5, e6, e7⟩ := idx1 t
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; rw [e6]; show (i 0).val / 10000 * 10000 ≤ (i 0).val ∧ (i 0).val < (i 0).val / 10000 * 10000 + 10000; omega
  | ⟨1, _⟩ => show win1_3.index t (1 : Fin 2) * 40 ≤ (i 1).val ∧ (i 1).val < win1_3.index t (1 : Fin 2) * 40 + 40; rw [e7]; omega

/-- The result array of region 1 after its ten points: the whole-array function of the arrays the region entered with. -/
theorem arr1 (c : Dev nD) : (dat1 V c).arrAt 3 cfg1.N = mmRelu (V c main_v42) (V c main_v43) (V c main_arg4) :=
  (dat1 V c).arrAt_eq_of_cover 3 _ (fun t _ => flushed1 V c t) cover1

/-! ## Region 2 -/

/-- The printed index maps of region 2, decided over its ten grid points: the row windows sit at block t, the others at block 0. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Row p of the row window's block at point t is row 10000·t + p of its array. -/
theorem rows2 (c : Dev nD) (t : Fin cfg2.N) (p : Fin 10000) (k : Fin 40) (n : Fin 100000) (hn : n.val = t.val * 10000 + p.val) :
    (iblk2 V c 0 t : Vec Ideal S10000x40 .f32) (ix2 p k) = (V c main_v57 : S100000x40.Idx → Ideal .f32) (ix2 n k) := by
  obtain ⟨e0, e1, e2, e3, e4, e5⟩ := idx2 t
  unfold iblk2
  rw [View.read_apply]
  show V c main_v57 _ = V c main_v57 _
  refine congrArg _ (funext fun a => Fin.ext ?_)
  match a with
  | ⟨0, _⟩ => show win2_0.index t (0 : Fin 2) * 10000 + 1 * p.val = n.val; rw [e0, hn]; omega
  | ⟨1, _⟩ => show win2_0.index t (1 : Fin 2) * 40 + 1 * k.val = k.val; rw [e1]; omega

/-- Window 1 of region 2 is its whole array at every point. -/
theorem whole2_1 (c : Dev nD) (t : Fin cfg2.N) : (iblk2 V c 1 t : Vec Ideal S1x40 .f32) = V c main_v58 := by
  obtain ⟨e0, e1, e2, e3, e4, e5⟩ := idx2 t
  funext j
  unfold iblk2
  rw [View.read_apply]
  show V c main_v58 _ = V c main_v58 j
  refine congrArg _ (funext fun a => Fin.ext ?_)
  match a with
  | ⟨0, _⟩ => show win2_1.index t (0 : Fin 2) * 1 + 1 * (j 0).val = (j 0).val; rw [e2]; omega
  | ⟨1, _⟩ => show win2_1.index t (1 : Fin 2) * 40 + 1 * (j 1).val = (j 1).val; rw [e3]; omega

/-- Where point t's output block sits in the result array: entry (p, q) of the block is entry (10000·t + p, q). -/
theorem emb2 (t : Fin cfg2.N) (p : Fin 10000) (q : Fin 40) (n : Fin 100000) (hn : n.val = t.val * 10000 + p.val) :
    ((cfg2.win 2).blk t).view.emb (ix2 p q : S10000x40.Idx) = (ix2 n q : S100000x40.Idx) := by
  obtain ⟨e0, e1, e2, e3, e4, e5⟩ := idx2 t
  refine funext fun a => Fin.ext ?_
  match a with
  | ⟨0, _⟩ => show win2_2.index t (0 : Fin 2) * 10000 + 1 * p.val = n.val; rw [e4, hn]; omega
  | ⟨1, _⟩ => show win2_2.index t (1 : Fin 2) * 40 + 1 * q.val = q.val; rw [e5]; omega

/-- What point t writes back is block t of the whole-array function of the region's input arrays. -/
theorem flushed2 (c : Dev nD) (t : Fin cfg2.N) :
    (dat2 V c).flushed 2 t = ((cfg2.win 2).blk t).view.read (Elt Ideal) (lsm (V c main_v57) (V c main_v58)) := by
  show (cfg2.win 2).cut (grid2.coords t) ((dat2 V c).after 2 t) = _
  rw [after2_2]
  unfold out2_2
  rw [View.canon_unit_zero hz]
  simp only [View.ld_unit_zero (S := S10000x40) hz, View.ld_unit_zero (S := S1x40) hz]
  funext j
  obtain ⟨p, q, rfl⟩ : ∃ (p : Fin 10000) (q : Fin 40), j = ix2 p q := ⟨j 0, j 1, eq_ix2 j⟩
  have ht : t.val < 10 := Nat.lt_of_lt_of_eq t.isLt N_2
  have hn : (⟨t.val * 10000 + p.val, by have := p.isLt; omega⟩ : Fin 100000).val = t.val * 10000 + p.val := rfl
  show k2_pay1 (iblk2 V c 0 t) (iblk2 V c 1 t) (ix2 p q) = lsm (V c main_v57) (V c main_v58) (((cfg2.win 2).blk t).view.emb (ix2 p q))
  rw [emb2 t p q _ hn, Payload.pay2_eq, whole2_1 V c t]
  exact lsm_rows _ _ _ p _ q (fun k => rows2 V c t p k _ hn)

/-- An index of the result array is in point t's block iff each coordinate is in the block's range. -/
theorem mem_blk2 (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v59).slice (win2_2.rect t)).set ↔ _
  rw [View.set_slice_whole, Rect.mem_set_unit]
  exact Iff.rfl

/-- Every row of the result array is in the block of the point its row number divided by 10000 names. -/
theorem cover2 (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  let t : Fin cfg2.N := ⟨(i 0).val / 10000, by rw [show cfg2.N = 10 from N_2]; omega⟩
  obtain ⟨e0, e1, e2, e3, e4, e5⟩ := idx2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; rw [e4]; show (i 0).val / 10000 * 10000 ≤ (i 0).val ∧ (i 0).val < (i 0).val / 10000 * 10000 + 10000; omega
  | ⟨1, _⟩ => show win2_2.index t (1 : Fin 2) * 40 ≤ (i 1).val ∧ (i 1).val < win2_2.index t (1 : Fin 2) * 40 + 40; rw [e5]; omega

/-- The result array of region 2 after its ten points: the whole-array function of the arrays the region entered with. -/
theorem arr2 (c : Dev nD) : (dat2 V c).arrAt 2 cfg2.N = lsm (V c main_v57) (V c main_v58) :=
  (dat2 V c).arrAt_eq_of_cover 2 _ (fun t _ => flushed2 V c t) cover2

end Cert.KernelIdeal.Blocks

end
-- ==== Proof.Propagate.lean ====
/-
  Propagation along the edges, as one function.

  Gather the rows of a node-feature matrix named by the source indices (an index below zero is wrapped by the number of
  nodes first), scale each gathered row by its edge's normalisation weight, and add the scaled rows into the rows named by
  the target indices of a zero matrix. It is one chain of host operations, the same in the kernel's program and in the
  reference, so it is carried as ONE function of the index arrays, the weights and the feature matrix, and never opened.
  The reference's two aggregates are this function of its two products.
-/
import proofs.«179233_j12232066859616_1_alg».proof.Proof.RefRead

noncomputable section

namespace Cert.ReferenceIdeal.Stages

open Cert.ReferenceIdeal Cert.ReferenceIdeal.Gen Cert.ReferenceIdeal.ReadP
open Idealize.ShloMosaic

section Chains
variable {F : FTy → Type} [FloatOps F]

/-- Gather the 64-wide rows at the source indices, scale by the weights, add into the rows at the target indices. -/
def propagate64 (src dst : (⟨S1700000, .i32⟩ : BufTy).Contents (Elt F)) (w : (⟨S1700000, .f32⟩ : BufTy).Contents (Elt F))
    (t : (⟨S100000x64, .f32⟩ : BufTy).Contents (Elt F)) : (⟨S100000x64, .f32⟩ : BufTy).Contents (Elt F) :=
  Host.scatterAdd scatter_S100000x64_S1700000x1_S1700000x64_1_0_0_1 (val_main_v40 (F := F))
    (broadcastInDim S1700000x1 ![0] bcast_S1700000_S1700000x1_0 dst)
    (mulf (Host.gather gather_S100000x64_S1700000x1_S1700000x64_1_0_n_n_0_1_164 t
        (broadcastInDim S1700000x1 ![0] bcast_S1700000_S1700000x1_0
          (select (cmpi .slt src (val_main_v30 (F := F))) (addi src (val_main_v32 (F := F))) src)))
      (broadcastInDim S1700000x64 ![0, 1] bcast_S1700000x1_S1700000x64_0_1 (broadcastInDim S1700000x1 ![0] bcast_S1700000_S1700000x1_0 w)))

/-- The same for 40-wide rows. -/
def propagate40 (src dst : (⟨S1700000, .i32⟩ : BufTy).Contents (Elt F)) (w : (⟨S1700000, .f32⟩ : BufTy).Contents (Elt F))
    (t : (⟨S100000x40, .f32⟩ : BufTy).Contents (Elt F)) : (⟨S100000x40, .f32⟩ : BufTy).Contents (Elt F) :=
  Host.scatterAdd scatter_S100000x40_S1700000x1_S1700000x40_1_0_0_1 (val_main_v58 (F := F))
    (broadcastInDim S1700000x1 ![0] bcast_S1700000_S1700000x1_0 dst)
    (mulf (Host.gather gather_S100000x40_S1700000x1_S1700000x40_1_0_n_n_0_1_140 t
        (broadcastInDim S1700000x1 ![0] bcast_S1700000_S1700000x1_0
          (select (cmpi .slt src (val_main_v48 (F := F))) (addi src (val_main_v50 (F := F))) src)))
      (broadcastInDim S1700000x40 ![0, 1] bcast_S1700000x1_S1700000x40_0_1 (broadcastInDim S1700000x1 ![0] bcast_S1700000_S1700000x1_0 w)))

variable (x0 : (⟨S100000x128, .f32⟩ : BufTy).Contents (Elt F)) (x1 : (⟨S2x1600000, .i32⟩ : BufTy).Contents (Elt F))
  (x2 : (⟨S128x64, .f32⟩ : BufTy).Contents (Elt F)) (x3 : (⟨S64, .f32⟩ : BufTy).Contents (Elt F))
  (x4 : (⟨S64x40, .f32⟩ : BufTy).Contents (Elt F))

/-- The first layer's aggregate is the propagation of the first product. -/
theorem v42_eq : val_main_v42 (F := F) x0 x1 x2
    = propagate64 (val_main_v3 (F := F) x1) (val_main_v6 (F := F) x1) (val_main_v28 (F := F) x1) (val_main_v29 (F := F) x0 x2) := by
  simp only [val_main_v42, val_main_v41, val_main_v39, val_main_v38, val_main_v37, val_main_v36, val_main_v35, val_main_v34, val_main_v33, val_main_v31, propagate64]

/-- The second layer's aggregate is the propagation of the second product. -/
theorem v60_eq : val_main_v60 (F := F) x0 x1 x2 x3 x4
    = propagate40 (val_main_v3 (F := F) x1) (val_main_v6 (F := F) x1) (val_main_v28 (F := F) x1) (val_main_v47 (F := F) x0 x1 x2 x3 x4) := by
  simp only [val_main_v60, val_main_v59, val_main_v57, val_main_v56, val_main_v55, val_main_v54, val_main_v53, val_main_v52, val_main_v51, val_main_v49, propagate40]

end Chains

end Cert.ReferenceIdeal.Stages

end
-- ==== Proof.KernelHost.lean ====
/-
  The idealized kernel's result array, read back through its three regions and the host operations between them.

  Before the first region the host computes, from the edge list alone, the source and target index arrays (the edge
  endpoints followed by the self-loops) and the per-edge normalisation weights; no later operation and no region writes
  these, nor the arguments, so they are carried unchanged to wherever they are read. After the first region (the matrix
  product of the features with the first weights) a stretch of host operations propagates the product along the edges and
  reshapes the first bias into a one-row matrix; the second region is the rectified-row product; a second stretch propagates
  again and reshapes the second bias; the third region is the row-wise log-softmax. Each stretch's result is read off the fold
  of its operations with what it reads kept as variables, and is literally the reference's chain of the same operations.
-/
import proofs.«179233_j12232066859616_1_alg».proof.Proof.Gen.KernelIdeal.Frame
import proofs.«179233_j12232066859616_1_alg».proof.Proof.Blocks
import proofs.«179233_j12232066859616_1_alg».proof.Proof.Propagate

set_option maxRecDepth 16384

noncomputable section

namespace Cert.KernelIdeal.Host

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-- Equal operands give equal concatenations (so that a rewriting pass enters the operand list). -/
theorem concat2_congr {a a' : (⟨S1600000, .i32⟩ : BufTy).Contents (Elt Ideal)} {b b' : (⟨S100000, .i32⟩ : BufTy).Contents (Elt Ideal)}
    (ha : a = a') (hb : b = b') :
    concatenate S1700000 0 [⟨S1600000, a⟩, ⟨S100000, b⟩] concatenates_S1600000_S100000_S1700000_d0
      = concatenate S1700000 0 [⟨S1600000, a'⟩, ⟨S100000, b'⟩] concatenates_S1600000_S100000_S1700000_d0 := by
  subst ha hb; rfl

attribute [local congr] concat2_congr

/-- A buffer that no operation of a stretch writes holds after the stretch what it held before. -/
macro "kept_through " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## What is carried: the arguments, the two index arrays and the weights -/

theorem W1_main_arg0 (c : Dev nD) : W1 m ρ c (Proc.devRef .tc main_arg0) = W0 m ρ c (Proc.devRef .tc main_arg0) := by
  kept_through hostOps0
theorem W1_main_arg2 (c : Dev nD) : W1 m ρ c (Proc.devRef .tc main_arg2) = W0 m ρ c (Proc.devRef .tc main_arg2) := by
  kept_through hostOps0
theorem W1_main_arg3 (c : Dev nD) : W1 m ρ c (Proc.devRef .tc main_arg3) = W0 m ρ c (Proc.devRef .tc main_arg3) := by
  kept_through hostOps0
theorem W1_main_arg4 (c : Dev nD) : W1 m ρ c (Proc.devRef .tc main_arg4) = W0 m ρ c (Proc.devRef .tc main_arg4) := by
  kept_through hostOps0
theorem W1_main_arg5 (c : Dev nD) : W1 m ρ c (Proc.devRef .tc main_arg5) = W0 m ρ c (Proc.devRef .tc main_arg5) := by
  kept_through hostOps0
theorem W2_main_v3 (c : Dev nD) : W2 m ρ c (Proc.devRef .tc main_v3) = W1 m ρ c (Proc.devRef .tc main_v3) :=
  W2_of_ne m ρ c main_v3 (by decide)
theorem W2_main_v6 (c : Dev nD) : W2 m ρ c (Proc.devRef .tc main_v6) = W1 m ρ c (Proc.devRef .tc main_v6) :=
  W2_of_ne m ρ c main_v6 (by decide)
theorem W2_main_v28 (c : Dev nD) : W2 m ρ c (Proc.devRef .tc main_v28) = W1 m ρ c (Proc.devRef .tc main_v28) :=
  W2_of_ne m ρ c main_v28 (by decide)
theorem W2_main_arg3 (c : Dev nD) : W2 m ρ c (Proc.devRef .tc main_arg3) = W1 m ρ c (Proc.devRef .tc main_arg3) :=
  W2_of_ne m ρ c main_arg3 (by decide)
theorem W2_main_arg4 (c : Dev nD) : W2 m ρ c (Proc.devRef .tc main_arg4) = W1 m ρ c (Proc.devRef .tc main_arg4) :=
  W2_of_ne m ρ c main_arg4 (by decide)
theorem W2_main_arg5 (c : Dev nD) : W2 m ρ c (Proc.devRef .tc main_arg5) = W1 m ρ c (Proc.devRef .tc main_arg5) :=
  W2_of_ne m ρ c main_arg5 (by decide)
theorem W3_main_v3 (c : Dev nD) : W3 m ρ c (Proc.devRef .tc main_v3) = W2 m ρ c (Proc.devRef .tc main_v3) := by
  kept_through hostOps1
theorem W3_main_v6 (c : Dev nD) : W3 m ρ c (Proc.devRef .tc main_v6) = W2 m ρ c (Proc.devRef .tc main_v6) := by
  kept_through hostOps1
theorem W3_main_v28 (c : Dev nD) : W3 m ρ c (Proc.devRef .tc main_v28) = W2 m ρ c (Proc.devRef .tc main_v28) := by
  kept_through hostOps1
theorem W3_main_arg4 (c : Dev nD) : W3 m ρ c (Proc.devRef .tc main_arg4) = W2 m ρ c (Proc.devRef .tc main_arg4) := by
  kept_through hostOps1
theorem W3_main_arg5 (c : Dev nD) : W3 m ρ c (Proc.devRef .tc main_arg5) = W2 m ρ c (Proc.devRef .tc main_arg5) := by
  kept_through hostOps1
theorem W4_main_v3 (c : Dev nD) : W4 m ρ c (Proc.devRef .tc main_v3) = W3 m ρ c (Proc.devRef .tc main_v3) :=
  W4_of_ne m ρ c main_v3 (by decide)
theorem W4_main_v6 (c : Dev nD) : W4 m ρ c (Proc.devRef .tc main_v6) = W3 m ρ c (Proc.devRef .tc main_v6) :=
  W4_of_ne m ρ c main_v6 (by decide)
theorem W4_main_v28 (c : Dev nD) : W4 m ρ c (Proc.devRef .tc main_v28) = W3 m ρ c (Proc.devRef .tc main_v28) :=
  W4_of_ne m ρ c main_v28 (by decide)
theorem W4_main_arg5 (c : Dev nD) : W4 m ρ c (Proc.devRef .tc main_arg5) = W3 m ρ c (Proc.devRef .tc main_arg5) :=
  W4_of_ne m ρ c main_arg5 (by decide)

/-! ## The first stretch: the index arrays and the weights, from the edge list -/

set_option maxHeartbeats 2000000 in
/-- The source indices are the reference's. -/
theorem src_eq (c : Dev nD) : W1 m ρ c (Proc.devRef .tc main_v3) = Cert.ReferenceIdeal.ReadP.val_main_v3 (F := Ideal) (W0 m ρ c (Proc.devRef .tc main_arg1)) := by
  show StableHlo.after hostOps0 (W0 m ρ c) (Proc.devRef .tc main_v3) = _
  after_results_simp
  generalize W0 m ρ c (Proc.devRef .tc main_arg1) = x1
  simp only [Cert.ReferenceIdeal.ReadP.val_main_v3, Cert.ReferenceIdeal.ReadP.val_main_v2, Cert.ReferenceIdeal.ReadP.val_main_v1, Cert.ReferenceIdeal.ReadP.val_main_v0]
  rfl

set_option maxHeartbeats 2000000 in
/-- The target indices are the reference's. -/
theorem dst_eq (c : Dev nD) : W1 m ρ c (Proc.devRef .tc main_v6) = Cert.ReferenceIdeal.ReadP.val_main_v6 (F := Ideal) (W0 m ρ c (Proc.devRef .tc main_arg1)) := by
  show StableHlo.after hostOps0 (W0 m ρ c) (Proc.devRef .tc main_v6) = _
  after_results_simp
  generalize W0 m ρ c (Proc.devRef .tc main_arg1) = x1
  simp only [Cert.ReferenceIdeal.ReadP.val_main_v6, Cert.ReferenceIdeal.ReadP.val_main_v5, Cert.ReferenceIdeal.ReadP.val_main_v4, Cert.ReferenceIdeal.ReadP.val_main_v0]
  rfl

set_option maxHeartbeats 4000000 in
/-- The normalisation weights are the reference's. -/
theorem weights_eq (c : Dev nD) : W1 m ρ c (Proc.devRef .tc main_v28) = Cert.ReferenceIdeal.ReadP.val_main_v28 (F := Ideal) (W0 m ρ c (Proc.devRef .tc main_arg1)) := by
  show StableHlo.after hostOps0 (W0 m ρ c) (Proc.devRef .tc main_v28) = _
  after_results_simp
  generalize W0 m ρ c (Proc.devRef .tc main_arg1) = x1
  simp only [Cert.ReferenceIdeal.ReadP.val_main_v0, Cert.ReferenceIdeal.ReadP.val_main_v1, Cert.ReferenceIdeal.ReadP.val_main_v2, Cert.ReferenceIdeal.ReadP.val_main_v3, Cert.ReferenceIdeal.ReadP.val_main_v4, Cert.ReferenceIdeal.ReadP.val_main_v5, Cert.ReferenceIdeal.ReadP.val_main_v6, Cert.ReferenceIdeal.ReadP.val_main_cst, Cert.ReferenceIdeal.ReadP.val_main_v7, Cert.ReferenceIdeal.ReadP.val_main_cst_0, Cert.ReferenceIdeal.ReadP.val_main_v8, Cert.ReferenceIdeal.ReadP.val_main_v9, Cert.ReferenceIdeal.ReadP.val_main_v10, Cert.ReferenceIdeal.ReadP.val_main_cst_1, Cert.ReferenceIdeal.ReadP.val_main_v11, Cert.ReferenceIdeal.ReadP.val_main_v12, Cert.ReferenceIdeal.ReadP.val_main_v13, Cert.ReferenceIdeal.ReadP.val_main_c, Cert.ReferenceIdeal.ReadP.val_main_v14, Cert.ReferenceIdeal.ReadP.val_main_v15, Cert.ReferenceIdeal.ReadP.val_main_c_2, Cert.ReferenceIdeal.ReadP.val_main_v16, Cert.ReferenceIdeal.ReadP.val_main_v17, Cert.ReferenceIdeal.ReadP.val_main_v18, Cert.ReferenceIdeal.ReadP.val_main_v19, Cert.ReferenceIdeal.ReadP.val_main_v20, Cert.ReferenceIdeal.ReadP.val_main_c_3, Cert.ReferenceIdeal.ReadP.val_main_v21, Cert.ReferenceIdeal.ReadP.val_main_v22, Cert.ReferenceIdeal.ReadP.val_main_c_4, Cert.ReferenceIdeal.ReadP.val_main_v23, Cert.ReferenceIdeal.ReadP.val_main_v24, Cert.ReferenceIdeal.ReadP.val_main_v25, Cert.ReferenceIdeal.ReadP.val_main_v26, Cert.ReferenceIdeal.ReadP.val_main_v27, Cert.ReferenceIdeal.ReadP.val_main_v28]
  rfl

/-! ## The two later stretches: propagation, and the bias as a one-row matrix -/

set_option maxHeartbeats 2000000 in
/-- The first layer's aggregate is the propagation of the first region's result. -/
theorem agg1_eq (c : Dev nD) : W3 m ρ c (Proc.devRef .tc main_v42)
    = Cert.ReferenceIdeal.Stages.propagate64 (F := Ideal) (W2 m ρ c (Proc.devRef .tc main_v3)) (W2 m ρ c (Proc.devRef .tc main_v6)) (W2 m ρ c (Proc.devRef .tc main_v28)) (W2 m ρ c (Proc.devRef .tc main_v29)) := by
  show StableHlo.after hostOps1 (W2 m ρ c) (Proc.devRef .tc main_v42) = _
  after_results_simp
  generalize W2 m ρ c (Proc.devRef .tc main_v3) = s3
  generalize W2 m ρ c (Proc.devRef .tc main_v6) = s6
  generalize W2 m ρ c (Proc.devRef .tc main_v28) = w
  generalize W2 m ρ c (Proc.devRef .tc main_v29) = t
  simp only [Cert.ReferenceIdeal.Stages.propagate64, Cert.ReferenceIdeal.ReadP.val_main_v40, Cert.ReferenceIdeal.ReadP.val_main_cst_7, Cert.ReferenceIdeal.ReadP.val_main_v30, Cert.ReferenceIdeal.ReadP.val_main_c_5, Cert.ReferenceIdeal.ReadP.val_main_v32, Cert.ReferenceIdeal.ReadP.val_main_c_6]
  rfl

/-- The first bias, as the second region's one-row window. -/
theorem bias1_eq (c : Dev nD) : W3 m ρ c (Proc.devRef .tc main_v43) = shapeCast S1x64 (W2 m ρ c (Proc.devRef .tc main_arg3)) shapeCasts_S64_S1x64 := by
  show StableHlo.after hostOps1 (W2 m ρ c) (Proc.devRef .tc main_v43) = _
  after_results_simp
  rfl

set_option maxHeartbeats 2000000 in
/-- The second layer's aggregate is the propagation of the second region's result. -/
theorem agg2_eq (c : Dev nD) : W5 m ρ c (Proc.devRef .tc main_v57)
    = Cert.ReferenceIdeal.Stages.propagate40 (F := Ideal) (W4 m ρ c (Proc.devRef .tc main_v3)) (W4 m ρ c (Proc.devRef .tc main_v6)) (W4 m ρ c (Proc.devRef .tc main_v28)) (W4 m ρ c (Proc.devRef .tc main_v44)) := by
  show StableHlo.after hostOps2 (W4 m ρ c) (Proc.devRef .tc main_v57) = _
  after_results_simp
  generalize W4 m ρ c (Proc.devRef .tc main_v3) = s3
  generalize W4 m ρ c (Proc.devRef .tc main_v6) = s6
  generalize W4 m ρ c (Proc.devRef .tc main_v28) = w
  generalize W4 m ρ c (Proc.devRef .tc main_v44) = t
  simp only [Cert.ReferenceIdeal.Stages.propagate40, Cert.ReferenceIdeal.ReadP.val_main_v58, Cert.ReferenceIdeal.ReadP.val_main_cst_10, Cert.ReferenceIdeal.ReadP.val_main_v48, Cert.ReferenceIdeal.ReadP.val_main_c_8, Cert.ReferenceIdeal.ReadP.val_main_v50, Cert.ReferenceIdeal.ReadP.val_main_c_9]
  rfl

/-- The second bias, as the third region's one-row window. -/
theorem bias2_eq (c : Dev nD) : W5 m ρ c (Proc.devRef .tc main_v58) = shapeCast S1x40 (W4 m ρ c (Proc.devRef .tc main_arg5)) shapeCasts_S40_S1x40 := by
  show StableHlo.after hostOps2 (W4 m ρ c) (Proc.devRef .tc main_v58) = _
  after_results_simp
  rfl

end Cert.KernelIdeal.Host

end
-- ==== Proof.KernelRun.lean ====
/-
  The idealized kernel's run, with its result named.

  @main is six segments: a stretch of host operations, the first matrix product's region, a stretch, the second
  region (bias, rectifier, matrix product), a stretch, the third region (bias, row-wise log-softmax). The buffer
  contents at each boundary are a fold from the launch memory; the last boundary's contents are `W6`. Every weakly fair
  execution terminates without a fault, the result array ends holding what the last boundary's contents say it holds,
  and the six argument arrays end as launched. The later modules read `W6` at the result back through the three regions.
-/
import proofs.«179233_j12232066859616_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last boundary's
    contents and the arguments end unchanged. -/
theorem run_result : θ_run defs (onTc (τ := τ) (main (F := F))) ⟨m, fun _ => 0, ρ⟩ (fun r => ∀ c : Dev nD,
      r.2.mem ((c.tc : Thread nD τ).loc main_v59) = V6 m ρ c main_v59
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v59 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.KernelValue.lean ====
/-
  The value of the idealized kernel's result array, as one function of the six argument arrays:

      lsm (propagate (mmRelu (propagate (mm x W₁)) b₁ W₂)) b₂

  — the first region's product, propagated along the edges; the second region's rectified-row product of that with the
  first bias and the second weights, propagated again; the third region's row-wise log-softmax of that with the second
  bias. Each region's result array is the row-wise function of the arrays the region entered with (Blocks), each stretch
  of host operations is the reference's chain (KernelHost), and what is carried across is carried unchanged.
-/
import proofs.«179233_j12232066859616_1_alg».proof.Proof.KernelHost
import proofs.«179233_j12232066859616_1_alg».proof.Proof.KernelRun

set_option maxRecDepth 16384

noncomputable section

namespace Cert.KernelIdeal.Host

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-- The source indices, the target indices and the weights, from the edge list as launched. -/
abbrev srcOf (c : Dev nD) := Cert.ReferenceIdeal.ReadP.val_main_v3 (F := Ideal) (W0 m ρ c (Proc.devRef .tc main_arg1))
abbrev dstOf (c : Dev nD) := Cert.ReferenceIdeal.ReadP.val_main_v6 (F := Ideal) (W0 m ρ c (Proc.devRef .tc main_arg1))
abbrev wOf (c : Dev nD) := Cert.ReferenceIdeal.ReadP.val_main_v28 (F := Ideal) (W0 m ρ c (Proc.devRef .tc main_arg1))

/-- What the index arrays and the weights are wherever they are read: after the first region, and after the second. -/
theorem src2 (c : Dev nD) : W2 m ρ c (Proc.devRef .tc main_v3) = srcOf m ρ c := (W2_main_v3 m ρ c).trans (src_eq m ρ c)
theorem dst2 (c : Dev nD) : W2 m ρ c (Proc.devRef .tc main_v6) = dstOf m ρ c := (W2_main_v6 m ρ c).trans (dst_eq m ρ c)
theorem w2 (c : Dev nD) : W2 m ρ c (Proc.devRef .tc main_v28) = wOf m ρ c := (W2_main_v28 m ρ c).trans (weights_eq m ρ c)
theorem src4 (c : Dev nD) : W4 m ρ c (Proc.devRef .tc main_v3) = srcOf m ρ c := (W4_main_v3 m ρ c).trans ((W3_main_v3 m ρ c).trans (src2 m ρ c))
theorem dst4 (c : Dev nD) : W4 m ρ c (Proc.devRef .tc main_v6) = dstOf m ρ c := (W4_main_v6 m ρ c).trans ((W3_main_v6 m ρ c).trans (dst2 m ρ c))
theorem w4 (c : Dev nD) : W4 m ρ c (Proc.devRef .tc main_v28) = wOf m ρ c := (W4_main_v28 m ρ c).trans ((W3_main_v28 m ρ c).trans (w2 m ρ c))

/-- The arguments wherever they are read. -/
theorem arg3_2 (c : Dev nD) : W2 m ρ c (Proc.devRef .tc main_arg3) = W0 m ρ c (Proc.devRef .tc main_arg3) := (W2_main_arg3 m ρ c).trans (W1_main_arg3 m ρ c)
theorem arg4_3 (c : Dev nD) : W3 m ρ c (Proc.devRef .tc main_arg4) = W0 m ρ c (Proc.devRef .tc main_arg4) :=
  (W3_main_arg4 m ρ c).trans ((W2_main_arg4 m ρ c).trans (W1_main_arg4 m ρ c))
theorem arg5_4 (c : Dev nD) : W4 m ρ c (Proc.devRef .tc main_arg5) = W0 m ρ c (Proc.devRef .tc main_arg5) :=
  (W4_main_arg5 m ρ c).trans ((W3_main_arg5 m ρ c).trans ((W2_main_arg5 m ρ c).trans (W1_main_arg5 m ρ c)))

/-- The first region's result: the product of the features with the first weights. -/
theorem prod1 (c : Dev nD) : W2 m ρ c (Proc.devRef .tc main_v29) = mm (W0 m ρ c (Proc.devRef .tc main_arg0)) (W0 m ρ c (Proc.devRef .tc main_arg2)) := by
  have h : W2 m ρ c (Proc.devRef .tc main_v29) = mm (W1 m ρ c (Proc.devRef .tc main_arg0)) (W1 m ρ c (Proc.devRef .tc main_arg2)) :=
    (W2_arr m ρ c 2).trans (Blocks.arr0 (V1 m ρ) c)
  rw [h, W1_main_arg0, W1_main_arg2]

/-- The first layer's aggregate. -/
theorem layer1 (c : Dev nD) : W3 m ρ c (Proc.devRef .tc main_v42)
    = Cert.ReferenceIdeal.Stages.propagate64 (F := Ideal) (srcOf m ρ c) (dstOf m ρ c) (wOf m ρ c) (mm (W0 m ρ c (Proc.devRef .tc main_arg0)) (W0 m ρ c (Proc.devRef .tc main_arg2))) := by
  rw [agg1_eq, src2, dst2, w2, prod1]

/-- The second region's result: the rectified-row product. -/
theorem prod2 (c : Dev nD) : W4 m ρ c (Proc.devRef .tc main_v44)
    = mmRelu (Cert.ReferenceIdeal.Stages.propagate64 (F := Ideal) (srcOf m ρ c) (dstOf m ρ c) (wOf m ρ c) (mm (W0 m ρ c (Proc.devRef .tc main_arg0)) (W0 m ρ c (Proc.devRef .tc main_arg2))))
        (shapeCast S1x64 (W0 m ρ c (Proc.devRef .tc main_arg3)) shapeCasts_S64_S1x64) (W0 m ρ c (Proc.devRef .tc main_arg4)) := by
  have h : W4 m ρ c (Proc.devRef .tc main_v44) = mmRelu (W3 m ρ c (Proc.devRef .tc main_v42)) (W3 m ρ c (Proc.devRef .tc main_v43)) (W3 m ρ c (Proc.devRef .tc main_arg4)) :=
    (W4_arr m ρ c 3).trans (Blocks.arr1 (V3 m ρ) c)
  rw [h, layer1, bias1_eq, arg3_2, arg4_3]

/-- The second layer's aggregate. -/
theorem layer2 (c : Dev nD) : W5 m ρ c (Proc.devRef .tc main_v57)
    = Cert.ReferenceIdeal.Stages.propagate40 (F := Ideal) (srcOf m ρ c) (dstOf m ρ c) (wOf m ρ c)
        (mmRelu (Cert.ReferenceIdeal.Stages.propagate64 (F := Ideal) (srcOf m ρ c) (dstOf m ρ c) (wOf m ρ c) (mm (W0 m ρ c (Proc.devRef .tc main_arg0)) (W0 m ρ c (Proc.devRef .tc main_arg2))))
          (shapeCast S1x64 (W0 m ρ c (Proc.devRef .tc main_arg3)) shapeCasts_S64_S1x64) (W0 m ρ c (Proc.devRef .tc main_arg4))) := by
  rw [agg2_eq, src4, dst4, w4, prod2]

/-- THE RESULT ARRAY after the run. -/
theorem result_value (c : Dev nD) : V6 m ρ c main_v59
    = lsm (Cert.ReferenceIdeal.Stages.propagate40 (F := Ideal) (srcOf m ρ c) (dstOf m ρ c) (wOf m ρ c)
        (mmRelu (Cert.ReferenceIdeal.Stages.propagate64 (F := Ideal) (srcOf m ρ c) (dstOf m ρ c) (wOf m ρ c) (mm (W0 m ρ c (Proc.devRef .tc main_arg0)) (W0 m ρ c (Proc.devRef .tc main_arg2))))
          (shapeCast S1x64 (W0 m ρ c (Proc.devRef .tc main_arg3)) shapeCasts_S64_S1x64) (W0 m ρ c (Proc.devRef .tc main_arg4))))
      (shapeCast S1x40 (W0 m ρ c (Proc.devRef .tc main_arg5)) shapeCasts_S40_S1x40) := by
  have h : V6 m ρ c main_v59 = lsm (W5 m ρ c (Proc.devRef .tc main_v57)) (W5 m ρ c (Proc.devRef .tc main_v58)) :=
    (W6_arr m ρ c 2).trans (Blocks.arr2 (V5 m ρ) c)
  rw [h, layer2, bias2_eq, arg5_4]

end Cert.KernelIdeal.Host

end
-- ==== Proof.RefFold.lean ====
/-
  The reference's run, read: the fold of its 94 host operations at the result buffer is the last of the per-operation
  stages, as a function of the six argument arrays.

  Two things stand between a rewriting pass and the fold. A two-operand concatenation carries its operands inside a list
  of (shape, array) pairs, which a rewriting pass does not enter by itself: equal operands give equal concatenations
  (`concat2_congr`). The operations of the two outlined functions (the rectifier and the log-softmax) move contents
  between a buffer's declared type and the type its typed reference carries; both are the same type, so the move is
  the identity (`ofBuf_toBuf` and the four one-sided forms at the buffers where an outlined operation meets a plain one).
  With these the fold rewrites to one term in the arguments, and unfolding every stage gives the same term.
-/
import proofs.«179233_j12232066859616_1_alg».proof.Proof.RefRead

noncomputable section

namespace Cert.ReferenceIdeal.Fold

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Equal operands give equal concatenations. -/
theorem concat2_congr {a a' : (⟨S1600000, .i32⟩ : BufTy).Contents (Elt F)} {b b' : (⟨S100000, .i32⟩ : BufTy).Contents (Elt F)}
    (ha : a = a') (hb : b = b') :
    concatenate S1700000 0 [⟨S1600000, a⟩, ⟨S100000, b⟩] concatenates_S1600000_S100000_S1700000_d0
      = concatenate S1700000 0 [⟨S1600000, a'⟩, ⟨S100000, b'⟩] concatenates_S1600000_S100000_S1700000_d0 := by
  subst ha hb; rfl

attribute [local congr] concat2_congr

/-- Contents carried to a typed reference's buffer and back are the contents. -/
theorem ofBuf_toBuf {T : BufTy} (x : TRef sig T) (v : T.Contents (Elt F)) : x.ofBuf (x.toBuf v) = v := by
  obtain ⟨r, rfl, h2, h3⟩ := x
  rfl

/-- At the four buffers where an outlined operation reads what a plain one wrote, or the other way round, the carrying
    is one-sided; the two types are the same, so it is the identity. -/
theorem ofBuf_v45 (h1 h2 h3) (v : (⟨S100000x64, .f32⟩ : BufTy).Contents (Elt F)) :
    (TRef.of (T := ⟨S100000x64, .f32⟩) main_v45 h1 h2 h3).ofBuf v = v := rfl
theorem toBuf_v46 (h1 h2 h3) (v : (⟨S100000x64, .f32⟩ : BufTy).Contents (Elt F)) :
    (TRef.of (T := ⟨S100000x64, .f32⟩) main_v46 h1 h2 h3).toBuf v = v := rfl
theorem ofBuf_v63 (h1 h2 h3) (v : (⟨S100000x40, .f32⟩ : BufTy).Contents (Elt F)) :
    (TRef.of (T := ⟨S100000x40, .f32⟩) main_v63 h1 h2 h3).ofBuf v = v := rfl
theorem toBuf_v64 (h1 h2 h3) (v : (⟨S100000x40, .f32⟩ : BufTy).Contents (Elt F)) :
    (TRef.of (T := ⟨S100000x40, .f32⟩) main_v64 h1 h2 h3).toBuf v = v := rfl

set_option maxRecDepth 16384 in
set_option maxHeartbeats 4000000 in
/-- The fold of the reference's operations, read at the result, is the last stage of the six arguments as launched. -/
theorem fold_eq (m : (ℓ : Loc nD τ sig) → Buf (Elt F) ℓ) (c : Dev nD) :
    res_main_v64 m c = val_main_v64 (F := F) (launchContents m c (Proc.devRef .tc main_arg0)) (launchContents m c (Proc.devRef .tc main_arg1))
      (launchContents m c (Proc.devRef .tc main_arg2)) (launchContents m c (Proc.devRef .tc main_arg3))
      (launchContents m c (Proc.devRef .tc main_arg4)) (launchContents m c (Proc.devRef .tc main_arg5)) := by
  unfold res_main_v64
  after_results_simp
  simp only [ofBuf_toBuf, ofBuf_v45, toBuf_v46, ofBuf_v63, toBuf_v64]
  generalize launchContents m c (Proc.devRef .tc main_arg0) = x0
  generalize launchContents m c (Proc.devRef .tc main_arg1) = x1
  generalize launchContents m c (Proc.devRef .tc main_arg2) = x2
  generalize launchContents m c (Proc.devRef .tc main_arg3) = x3
  generalize launchContents m c (Proc.devRef .tc main_arg4) = x4
  generalize launchContents m c (Proc.devRef .tc main_arg5) = x5
  simp only [val_main_v0, val_main_v1, val_main_v2, val_main_v3, val_main_v4, val_main_v5, val_main_v6, val_main_cst, val_main_v7, val_main_cst_0, val_main_v8, val_main_v9, val_main_v10, val_main_cst_1, val_main_v11, val_main_v12, val_main_v13, val_main_c, val_main_v14, val_main_v15, val_main_c_2, val_main_v16, val_main_v17, val_main_v18, val_main_v19, val_main_v20, val_main_c_3, val_main_v21, val_main_v22, val_main_c_4, val_main_v23, val_main_v24, val_main_v25, val_main_v26, val_main_v27, val_main_v28, val_main_v29, val_main_c_5, val_main_v30, val_main_v31, val_main_c_6, val_main_v32, val_main_v33, val_main_v34, val_main_v35, val_main_v36, val_main_v37, val_main_v38, val_main_v39, val_main_cst_7, val_main_v40, val_main_v41, val_main_v42, val_main_v43, val_main_v44, val_main_v45, val_main_call0_cst, val_main_call0_v0, val_main_v46, val_main_v47, val_main_c_8, val_main_v48, val_main_v49, val_main_c_9, val_main_v50, val_main_v51, val_main_v52, val_main_v53, val_main_v54, val_main_v55, val_main_v56, val_main_v57, val_main_cst_10, val_main_v58, val_main_v59, val_main_v60, val_main_v61, val_main_v62, val_main_v63, val_main_call1_cst, val_main_call1_v0, val_main_call1_cst_0, val_main_call1_v1, val_main_call1_v2, val_main_call1_v3, val_main_call1_v4, val_main_call1_v5, val_main_call1_v6, val_main_call1_cst_1, val_main_call1_v7, val_main_call1_v8, val_main_call1_v9, val_main_call1_v10, val_main_v64]
  rfl

/-- The same with the arguments named as the launch memory holds them. -/
theorem result_eq (m : (ℓ : Loc nD τ sig) → Buf (Elt F) ℓ) (c : Dev nD) :
    res_main_v64 m c = val_main_v64 (F := F) (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) :=
  fold_eq m c

end Cert.ReferenceIdeal.Fold

end
-- ==== Proof.RefStages.lean ====
/-
  The reference, stage by stage, is the same three row-wise functions with the same propagation between them.

  (The propagation between the stages is Propagate's one function.)
  Between the propagations the reference has a `dot_general`, a bias-add + rectifier + `dot_general`, and a bias-add +
  log-softmax; read at an index, each is the row-wise function of Spec: the products are sums over the contraction
  index, the bias a broadcast of a row, the row maximum a fold by max from −∞ (and the extra max with −∞ the
  reference takes changes nothing), the normaliser a sum started from zero.
-/
import proofs.«179233_j12232066859616_1_alg».proof.Proof.Propagate
import proofs.«179233_j12232066859616_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.ReferenceIdeal.Stages

open Cert.ReferenceIdeal Cert.ReferenceIdeal.Gen Cert.ReferenceIdeal.ReadP Cert.Spec
open Idealize.ShloMosaic Idealize.ShloMosaic.ValueIdx

/-! ## The three stages read at an index -/

variable (x0 : (⟨S100000x128, .f32⟩ : BufTy).Contents (Elt Ideal)) (x1 : (⟨S2x1600000, .i32⟩ : BufTy).Contents (Elt Ideal)) (x2 : (⟨S128x64, .f32⟩ : BufTy).Contents (Elt Ideal))
  (x3 : (⟨S64, .f32⟩ : BufTy).Contents (Elt Ideal)) (x4 : (⟨S64x40, .f32⟩ : BufTy).Contents (Elt Ideal)) (x5 : (⟨S40, .f32⟩ : BufTy).Contents (Elt Ideal))

/-- The first `dot_general` is the matrix product. -/
theorem dot1_eq : val_main_v29 (F := Ideal) x0 x2 = mm x0 x2 := by
  funext i
  obtain ⟨n, q, rfl⟩ : ∃ (n : Fin 100000) (q : Fin 64), i = ix2 n q := ⟨i 0, i 1, eq_ix2 i⟩
  rw [val_main_v29_apply, mm_apply]
  refine Finset.sum_congr rfl fun k _ => ?_
  have el : lidx_main_v29 (ix2 n q) k = ix2 n k := funext fun a => Fin.ext (by
    match a with
    | ⟨0, _⟩ => rfl
    | ⟨1, _⟩ => rfl)
  have er : ridx_main_v29 (ix2 n q) k = ix2 k q := funext fun a => Fin.ext (by
    match a with
    | ⟨0, _⟩ => rfl
    | ⟨1, _⟩ => rfl)
  rw [el, er]

/-- Bias, rectifier and the second `dot_general` are the rectified-row product, the bias read as a one-row matrix. -/
theorem dot2_eq (h : (⟨1, ![64]⟩ : Shape).ShapeCasts ⟨2, ![1, 64]⟩) :
    val_main_v47 (F := Ideal) x0 x1 x2 x3 x4 = mmRelu (val_main_v42 (F := Ideal) x0 x1 x2) (shapeCast ⟨2, ![1, 64]⟩ x3 h) x4 := by
  funext i
  obtain ⟨n, q, rfl⟩ : ∃ (n : Fin 100000) (q : Fin 40), i = ix2 n q := ⟨i 0, i 1, eq_ix2 i⟩
  rw [val_main_v47_apply, mmRelu_apply]
  refine Finset.sum_congr rfl fun k _ => ?_
  have el : lidx_main_v47 (ix2 n q) k = ix2 n k := funext fun a => Fin.ext (by
    match a with
    | ⟨0, _⟩ => rfl
    | ⟨1, _⟩ => rfl)
  have er : ridx_main_v47 (ix2 n q) k = ix2 k q := funext fun a => Fin.ext (by
    match a with
    | ⟨0, _⟩ => rfl
    | ⟨1, _⟩ => rfl)
  have e3 : idx_main_v43 (idx_main_v44 (ix2 n k : S100000x64.Idx)) = ix1 k := funext fun a => Fin.ext (by
    match a with
    | ⟨0, _⟩ => rfl)
  rw [el, er, val_main_v46_apply, val_main_v45_apply, val_main_v44_apply, val_main_v43_apply, val_main_call0_v0_apply,
    val_main_call0_cst_apply, e3, shapeCast_a_1a_apply]
  rfl

/-! ### The log-softmax -/

/-- The biased logits at (n, k): the aggregate plus the bias row. -/
theorem logits_apply (h : (⟨1, ![40]⟩ : Shape).ShapeCasts ⟨2, ![1, 40]⟩) (n : Fin 100000) (k : Fin 40) :
    val_main_v63 (F := Ideal) x0 x1 x2 x3 x4 x5 (ix2 n k)
      = val_main_v60 (F := Ideal) x0 x1 x2 x3 x4 (ix2 n k) + (shapeCast ⟨2, ![1, 40]⟩ x5 h) (ix2 (0 : Fin 1) k) := by
  have e : idx_main_v61 (idx_main_v62 (ix2 n k : S100000x40.Idx)) = ix1 k := funext fun a => Fin.ext (by
    match a with
    | ⟨0, _⟩ => rfl)
  rw [val_main_v63_apply, val_main_v62_apply, val_main_v61_apply, e, shapeCast_a_1a_apply]
  rfl

/-- The host's max-reduction of a 100000×40 array along its rows, then the max with −∞ the reference takes on top:
    at row n, the fold by max from −∞ over the row. Stated for ANY array. -/
theorem hostRowMax (y : (⟨S100000x40, .f32⟩ : BufTy).Contents (Elt Ideal)) (n : Fin 100000) :
    FloatOps.maximumf (F := Ideal) (FloatOps.ofBits .f32 0xFF800000#32)
      (Host.reduce FloatOps.maximumf y (val_main_call1_cst (F := Ideal)) reducesTo_S100000x40_S100000_d1 h_S_ (ix1 n))
    = rowMax (fun k => y (ix2 n k)) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  have hR : S100000x40.Reduces [1] S100000 := by decide
  have hred := Host.reduce_eq_fold_single (FloatOps.maximumf (F := Ideal) (φ := .f32)) y (val_main_call1_cst (F := Ideal))
    reducesTo_S100000x40_S100000_d1 hR h_S_ (ix1 n)
  rw [hred]
  have hfun : (y ∘ hR.lift (ix1 n)) = fun k : Fin 40 => y (ix2 n k) := funext fun k => congrArg y (funext fun a => Fin.ext (by
    match a with
    | ⟨0, _⟩ => rfl
    | ⟨1, _⟩ => rfl))
  rw [hfun]
  show max negInfF ((Finset.univ : Finset (Fin 40)).fold max negInfF (fun k => y (ix2 n k))) = rowMax (fun k => y (ix2 n k))
  exact max_eq_right ((Finset.le_fold_max _).mpr (Or.inl le_rfl))

/-- The row maximum the reference subtracts: the fold by max from −∞ over the row of biased logits. -/
theorem rowmax_apply (n : Fin 100000) :
    val_main_call1_v2 (F := Ideal) x0 x1 x2 x3 x4 x5 (ix1 n)
      = rowMax (fun k => val_main_v63 (F := Ideal) x0 x1 x2 x3 x4 x5 (ix2 n k)) := by
  rw [val_main_call1_v2_apply, val_main_call1_v1_apply, val_main_call1_cst_0_apply]
  unfold val_main_call1_v0
  exact hostRowMax _ n

/-- The shifted logits at (n, k). -/
theorem shifted_apply (n : Fin 100000) (k : Fin 40) :
    val_main_call1_v5 (F := Ideal) x0 x1 x2 x3 x4 x5 (ix2 n k)
      = val_main_v63 (F := Ideal) x0 x1 x2 x3 x4 x5 (ix2 n k) - rowMax (fun k' => val_main_v63 (F := Ideal) x0 x1 x2 x3 x4 x5 (ix2 n k')) := by
  have e : idx_main_call1_v3 (idx_main_call1_v4 (ix2 n k : S100000x40.Idx)) = ix1 n := funext fun a => Fin.ext (by
    match a with
    | ⟨0, _⟩ => rfl)
  rw [val_main_call1_v5_apply, val_main_call1_v4_apply, val_main_call1_v3_apply, e, rowmax_apply, Ideal.subf_def]

/-- Bias and log-softmax are the row-wise log-softmax of the biased rows, the bias read as a one-row matrix. -/
theorem lsm_eq (h : (⟨1, ![40]⟩ : Shape).ShapeCasts ⟨2, ![1, 40]⟩) :
    val_main_v64 (F := Ideal) x0 x1 x2 x3 x4 x5 = lsm (val_main_v60 (F := Ideal) x0 x1 x2 x3 x4) (shapeCast ⟨2, ![1, 40]⟩ x5 h) := by
  funext i
  obtain ⟨n, q, rfl⟩ : ∃ (n : Fin 100000) (q : Fin 40), i = ix2 n q := ⟨i 0, i 1, eq_ix2 i⟩
  have e8 : idx_main_call1_v8 (idx_main_call1_v10 (ix2 n q : S100000x40.Idx)) = ix1 n := funext fun a => Fin.ext (by
    match a with
    | ⟨0, _⟩ => rfl)
  rw [val_main_v64_apply, shifted_apply, val_main_call1_v10_apply, val_main_call1_v9_apply, val_main_call1_v8_apply, e8,
    val_main_call1_v7_apply, val_main_call1_cst_1_apply, lsm_apply]
  have hrow : (fun k => val_main_v60 (F := Ideal) x0 x1 x2 x3 x4 (ix2 n k) + (shapeCast ⟨2, ![1, 40]⟩ x5 h) (ix2 (0 : Fin 1) k))
      = fun k => val_main_v63 (F := Ideal) x0 x1 x2 x3 x4 x5 (ix2 n k) := funext fun k => (logits_apply x0 x1 x2 x3 x4 x5 h n k).symm
  rw [hrow]
  unfold logSoftmaxRow
  have hk : ∀ k : Fin 40, val_main_call1_v6 (F := Ideal) x0 x1 x2 x3 x4 x5 (idx_main_call1_v7 (ix1 n) k)
      = Ideal.exp (val_main_v63 (F := Ideal) x0 x1 x2 x3 x4 x5 (ix2 n k) - rowMax (fun k' => val_main_v63 (F := Ideal) x0 x1 x2 x3 x4 x5 (ix2 n k'))) := fun k => by
    have e7 : idx_main_call1_v7 (ix1 n) k = ix2 n k := funext fun a => Fin.ext (by
      match a with
      | ⟨0, _⟩ => rfl
      | ⟨1, _⟩ => rfl)
    rw [e7, val_main_call1_v6_apply, shifted_apply, Ideal.hostUnary_exp_def]
  rw [Finset.sum_congr rfl (fun k _ => hk k), Ideal.subf_def, Ideal.hostUnary_log_def, Ideal.ofBits_def, Ideal.ofBits_zero_f32, zero_add]

end Cert.ReferenceIdeal.Stages

end
-- ==== Proof.lean ====
/-
  The certificate: a two-layer graph convolution with a log-softmax head, computed by three pipelined kernels among host
  operations, against its plain reference, at the ideal values.

  Both programs first build, from the edge list, the source and target index arrays (edges, then self-loops) and the
  symmetric normalisation weights, with the same host operations. The kernel's program then alternates three regions with
  two propagations along the edges: X·W₁ in row blocks of 10000; propagate; max(· + b₁, 0)·W₂ in row blocks; propagate;
  the row-wise log-softmax of · + b₂ in row blocks. The reference computes `dot_general`, propagate, + b₁, max(·, 0),
  `dot_general`, propagate, + b₂, log-softmax on whole arrays. On extended reals the roundings to bf16 into the products
  are the identity, each product is the same sum over the contraction index, the row maximum is the same fold by max from −∞,
  and the normaliser the same sum; a row of a result depends on one row of its operand, so ten row blocks make the whole
  array. Hence the two result arrays are one function of the arguments:
      lsm (propagate (mmRelu (propagate (mm x W₁)) b₁ W₂)) b₂.
  The equality uses only commutativity-free rewriting of sums index by index — no law that needs finiteness —, so the
  precondition is not opened. The ideal pass rewrote nothing, so `preserves` is `True`.
-/
import proofs.«179233_j12232066859616_1_alg».proof.Defs
import proofs.«179233_j12232066859616_1_alg».proof.Proof.Gen.Kernel
import proofs.«179233_j12232066859616_1_alg».proof.Proof.Gen.Kernel.Frame
import proofs.«179233_j12232066859616_1_alg».proof.Proof.Gen.KernelIdeal
import proofs.«179233_j12232066859616_1_alg».proof.Proof.Gen.KernelIdeal.Frame
import proofs.«179233_j12232066859616_1_alg».proof.Proof.Gen.ReferenceIdeal
import proofs.«179233_j12232066859616_1_alg».proof.Proof.Gen.Pre_finite_inputs
import proofs.«179233_j12232066859616_1_alg».proof.Proof.KernelValue
import proofs.«179233_j12232066859616_1_alg».proof.Proof.RefFold
import proofs.«179233_j12232066859616_1_alg».proof.Proof.RefStages
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the same result array: the kernel's regions and the
    reference's stages are the same three row-wise functions with the same propagation between them. -/
theorem algebraic : Cert.algebraic_KernelIdeal_ReferenceIdeal := by
  intro m ρ m' ρ' _ hagree
  refine ⟨fun c => Cert.KernelIdeal.Gen.V6 m ρ c Cert.KernelIdeal.main_v59, Cert.KernelIdeal.RunValue.run_result m ρ, ?_⟩
  refine (θ_run Cert.ReferenceIdeal.defs _ _).mono (fun _ h c => ⟨(h c).1.trans ?_, (h c).2⟩) (Cert.ReferenceIdeal.ValueP.run (F := Ideal) m' ρ')
  obtain ⟨e0, e1, e2, e3, e4, e5⟩ := hagree c
  show Cert.ReferenceIdeal.ValueP.res_main_v64 m' c = Cert.KernelIdeal.Gen.V6 m ρ c Cert.KernelIdeal.main_v59
  rw [Cert.ReferenceIdeal.Fold.result_eq, e0, e1, e2, e3, e4, e5, Cert.KernelIdeal.Host.result_value,
    Cert.ReferenceIdeal.Stages.lsm_eq _ _ _ _ _ _ Cert.KernelIdeal.Facts₀.shapeCasts_S40_S1x40, Cert.ReferenceIdeal.Stages.v60_eq,
    Cert.ReferenceIdeal.Stages.dot2_eq _ _ _ _ _ Cert.KernelIdeal.Facts₀.shapeCasts_S64_S1x64, Cert.ReferenceIdeal.Stages.v42_eq, Cert.ReferenceIdeal.Stages.dot1_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
